-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 21
  | .vmem => 6
  | .smem => 0
  | _ => 0

abbrev bufTy : (tb : Table) → Fin (tcTables nBuf tb) → BufTy
  | .hbm, ⟨0, _⟩ => ⟨S8192, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .i1⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S1x8192, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1x1, .f32⟩
  | .local _ .vmem, ⟨5, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v22 : BitVec 1 := Scalar.cmpi .eq arg0 c7_i32
  let arg1 : BitVec 32 := BitVec.ofNat 32 (i 1).val
  let c7_i32_10 : BitVec 32 := 7#32
  let v23 : BitVec 1 := Scalar.cmpi .eq arg1 c7_i32_10
  let v24 : BitVec 1 := Scalar.andi v22 v23
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  reducesTo_S8192_S_d0 : S8192.ReducesTo [0] S_
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v8) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .i1⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S_d0_1 : S8192x8192.ReducesTo [0, 1] S_

variable [Facts₀]

class Facts : Prop extends Facts₀ where

variable [Facts]
-- ==== Proof.HostSide.lean ====
/-
  The host lines around the tiled sum, as functions of the argument vector.

  Before the tiled sum the program shifts the vector so that its least entry is not negative
  (`shifted a`: if `min a < 0` every entry has `min a` subtracted, otherwise the vector is kept), takes
  the mean of the shifted vector and adds a small constant (`meanEps a`), and lays the shifted vector out
  once as a column `[8192, 1]` and once as a row `[1, 8192]`: these are what the tiled sum reads.
  After it, the one-entry result `s` is divided by `2²⁷ · meanEps a` (`ratio`).
-/
import proofs.«135567_j11141145166385_1_alg».proof.Proof.Gen.KernelIdeal.Frame
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-- The least entry (the fold of `min` from +∞). -/
def least (a : FVec F S8192 .f32) : FVec F S_ .f32 :=
  Host.reduce FloatOps.minimumf a (constant S_ .f32 0x7F800000#32) reducesTo_S8192_S_d0 h_S_

/-- The vector with its least entry subtracted when that entry is negative. -/
def shifted (a : FVec F S8192 .f32) : FVec F S8192 .f32 :=
  select (broadcastInDim S8192 ![] bcast_S_S8192 (cmpf .olt (least a) (constant S_ .f32 0x00000000#32)))
    (subf a (broadcastInDim S8192 ![] bcast_S_S8192 (least a))) a

/-- The shifted vector's mean plus the small constant. -/
def meanEps (a : FVec F S8192 .f32) : FVec F S_ .f32 :=
  addf (Host.divf (Host.reduceAdd (shifted a) (constant S_ .f32 0x00000000#32) reducesTo_S8192_S_d0 h_S_)
    (constant S_ .f32 0x46000000#32)) (constant S_ .f32 0x322BCC77#32)

/-- A one-entry total divided by 2²⁷ times `μ`. -/
def ratio (s μ : FVec F S_ .f32) : FVec F S_ .f32 :=
  Host.divf s (mulf (constant S_ .f32 0x4D000000#32) μ)

variable (m : (ℓ : Loc nD τ sig) → Buf (Elt F) ℓ)

/-- The argument vector on core `c`. -/
abbrev arg (c : Dev nD) : FVec F S8192 .f32 := m ((c : Thread nD τ).loc main_arg0)

theorem entry_shifted (c : Dev nD) : (V m c main_v4 : FVec F S8192 .f32) = shifted (arg m c) := by
  dsimp only [V, V0]
  simp only [hostOps0, hostOps0_1, hostOps0_2, List.flatten_cons, List.flatten_nil, List.append_nil, List.cons_append,
    List.nil_append]
  after_results
  rfl

theorem entry_meanEps (c : Dev nD) : (V m c main_v7 : FVec F S_ .f32) = meanEps (arg m c) := by
  dsimp only [V, V0]
  simp only [hostOps0, hostOps0_1, hostOps0_2, List.flatten_cons, List.flatten_nil, List.append_nil, List.cons_append,
    List.nil_append]
  after_results
  rfl

theorem entry_column (c : Dev nD) :
    (V m c main_v8 : FVec F S8192x1 .f32) = shapeCast S8192x1 (shifted (arg m c)) shapeCasts_S8192_S8192x1 := by
  dsimp only [V, V0]
  simp only [hostOps0, hostOps0_1, hostOps0_2, List.flatten_cons, List.flatten_nil, List.append_nil, List.cons_append,
    List.nil_append]
  after_results
  rfl

theorem entry_row (c : Dev nD) :
    (V m c main_v9 : FVec F S1x8192 .f32) = shapeCast S1x8192 (shifted (arg m c)) shapeCasts_S8192_S1x8192 := by
  dsimp only [V, V0]
  simp only [hostOps0, hostOps0_1, hostOps0_2, List.flatten_cons, List.flatten_nil, List.append_nil, List.cons_append,
    List.nil_append]
  after_results
  rfl

end Cert.KernelIdeal.HostSide

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibColSum.lean ====
/-
  The sum of a one-column array along its rows.

  A `[n, 1]` array summed along its first axis (a `keepdims` total of per-row values held in a column) has one
  entry: the sum of the column's `n` entries.  On the extended reals, for the vector unit's reduction by
  addition started from the zero word; at any extent `n`.
-/
import Idealize.ShloMosaic.PureOps.Ideal.Laws
import Idealize.ShloMosaic.Lib.ValueIdx

noncomputable section

open scoped BigOperators

namespace Cert.ColSum

open Idealize.ShloMosaic Idealize.ShloMosaic.ValueIdx

/-- The sum of an `[n, 1]` column along its first axis reads, at its one index, the sum of the column's entries. -/
theorem colSum_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ k : Fin n, src (ix2 k u) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ => rfl

end Cert.ColSum

end
-- ==== Proof.TilePayload.lean ====
/-
  One tile's arithmetic, on the extended reals.

  At a grid point the body holds a column `x0` of 1024 entries (a stretch of the shifted vector, as a
  `[1024, 1]` block) and a row `x1` of 1024 entries (another stretch, as a `[1, 1024]` block).  It broadcasts
  both to `[1024, 1024]`, subtracts, takes absolute values, sums along each row, then sums the 1024 row sums,
  and adds the result to the running total `acc` (a `[1, 1]` block).  Read at its one index, the new total is

      acc + ∑ p, ∑ q, |x0 p − x1 q| .

  Both reductions start from the zero word, which is the number 0, and 0 + s = s; the casts between `[n]`,
  `[n, 1]` and a shape and itself move no entry.
-/
import proofs.«135567_j11141145166385_1_alg».proof.Proof.Gen.KernelIdeal.Skeleton
import proofs.«135567_j11141145166385_1_alg».proof.Proof.LibRowBlocks
import proofs.«135567_j11141145166385_1_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The sum of absolute differences over one tile: a column against a row. -/
def tileSum (x0 : FVec Ideal S1024x1 .f32) (x1 : FVec Ideal S1x1024 .f32) : EReal :=
  ∑ p : Fin 1024, ∑ q : Fin 1024, FloatOps.absf (F := Ideal) (φ := .f32) (x0 (ix2 p (0 : Fin 1)) - x1 (ix2 (0 : Fin 1) q))

/-- The body's one store, read at its one index: the running total plus the tile's sum. -/
theorem pay2_apply (x0 : FVec Ideal S1024x1 .f32) (x1 : FVec Ideal S1x1024 .f32) (acc : FVec Ideal S1x1 .f32) :
    k0_pay2 (F := Ideal) x0 x1 acc (ix2 (0 : Fin 1) (0 : Fin 1)) = acc (ix2 (0 : Fin 1) (0 : Fin 1)) + tileSum x0 x1 := by
  unfold k0_pay2 tileSum
  rw [shapeCast_self]
  refine (addf_apply _ _ _).trans (congrArg (acc (ix2 (0 : Fin 1) (0 : Fin 1)) + ·) ?_)
  refine (Cert.RowBlocks.shapeCast_col_apply _ _ (0 : Fin 1) (0 : Fin 1)).trans ?_
  refine (Cert.ColSum.colSum_apply _ _ _ _ (0 : Fin 1)).trans ?_
  refine Finset.sum_congr rfl fun p _ => ?_
  refine (Cert.RowBlocks.shapeCast_col_apply _ _ p (0 : Fin 1)).trans ?_
  refine (Cert.RowBlocks.rowSum_apply _ _ _ _ p).trans ?_
  refine Finset.sum_congr rfl fun q _ => ?_
  show FloatOps.absf (F := Ideal) (φ := .f32)
      (broadcastTo S1024x1024 (shapeCast S1024x1 x0 _) _ (ix2 p q) - broadcastTo S1024x1024 (shapeCast S1x1024 x1 _) _ (ix2 p q)) = _
  rw [shapeCast_self, shapeCast_self, Cert.RowBlocks.broadcastTo_col_apply, broadcastTo_1b_ab_apply]

/-- The zero block the first point stores into the running total, read at its one index: the number 0. -/
theorem pay1_apply : k0_pay1 (F := Ideal) (ix2 (0 : Fin 1) (0 : Fin 1)) = 0 := by
  unfold k0_pay1
  rw [shapeCast_self]
  exact Ideal.ofBits_zero_f32

end Cert.KernelIdeal.Tile

end
-- ==== Proof.PairSum.lean ====
/-
  Summing a function of two indices of a vector of 8192 entries, tile by tile.

  Cut the index range 0 … 8191 into 8 consecutive stretches of 1024: entry `p` of stretch `i` is index
  `1024·i + p`.  The 8192 × 8192 pairs of indices are then cut into 8 × 8 = 64 tiles of 1024 × 1024 pairs;
  number the tiles row by row, tile `t` pairing stretch `t / 8` with stretch `t % 8`.  Adding up, tile after
  tile, the sum of `g` over a tile's pairs gives the sum of `g` over all pairs — in any commutative monoid, so
  in particular on the extended reals, where no entry need be finite: only the order and the grouping of the
  additions change.  The same total is reached when the two indices trade places in the summation
  (`∑ r, ∑ c, g c r`): a finite double sum may be taken in either order.
-/
import Mathlib.Algebra.BigOperators.Fin
import Mathlib.Logic.Equiv.Fin.Basic
import Mathlib.Algebra.BigOperators.Group.Finset.Basic

open scoped BigOperators

namespace Cert.PairSum

variable {M : Type} [AddCommMonoid M]

/-- Entry `p` of stretch `i` (taken modulo 8, so that the index is in range for every `i`). -/
def rowIx (i : ℕ) (p : Fin 1024) : Fin 8192 := ⟨(i % 8) * 1024 + p.val, by have := p.isLt; have := Nat.mod_lt i (by decide : 0 < 8); omega⟩

theorem rowIx_val (i : ℕ) (p : Fin 1024) : (rowIx i p).val = (i % 8) * 1024 + p.val := rfl

/-- A sum over the 64 tile numbers is the double sum over the stretch pairs. -/
theorem sum_tiles (F : ℕ → ℕ → M) :
    ∑ t ∈ Finset.range 64, F (t / 8) (t % 8) = ∑ i : Fin 8, ∑ j : Fin 8, F i.val j.val := by
  rw [Finset.sum_range (fun t => F (t / 8) (t % 8))]
  rw [← Equiv.sum_comp (finProdFinEquiv (m := 8) (n := 8)) (fun t : Fin (8 * 8) => F (t.val / 8) (t.val % 8)),
    Fintype.sum_prod_type]
  refine Finset.sum_congr rfl fun i _ => Finset.sum_congr rfl fun j _ => ?_
  have hi := i.isLt
  have hj := j.isLt
  have hv : (finProdFinEquiv (i, j)).val = j.val + 8 * i.val := rfl
  rw [hv]
  congr 1 <;> omega

/-- A sum over all 8192 indices is the sum, stretch by stretch, over each stretch's entries. -/
theorem sum_stretches (h : Fin 8192 → M) : ∑ a : Fin 8192, h a = ∑ i : Fin 8, ∑ p : Fin 1024, h (rowIx i.val p) := by
  rw [← Equiv.sum_comp (finProdFinEquiv (m := 8) (n := 1024)) h, Fintype.sum_prod_type]
  refine Finset.sum_congr rfl fun i _ => Finset.sum_congr rfl fun p _ => congrArg h (Fin.ext ?_)
  have hi := i.isLt
  show p.val + 1024 * i.val = (i.val % 8) * 1024 + p.val
  rw [Nat.mod_eq_of_lt hi]
  omega

/-- The tiles, added up in order, give the sum over all pairs, the second index outermost. -/
theorem tiles_eq_pairs (g : Fin 8192 → Fin 8192 → M) :
    ∑ t ∈ Finset.range 64, ∑ p : Fin 1024, ∑ q : Fin 1024, g (rowIx (t / 8) p) (rowIx (t % 8) q)
      = ∑ r : Fin 8192, ∑ c : Fin 8192, g c r := by
  calc ∑ t ∈ Finset.range 64, ∑ p : Fin 1024, ∑ q : Fin 1024, g (rowIx (t / 8) p) (rowIx (t % 8) q)
      = ∑ i : Fin 8, ∑ j : Fin 8, ∑ p : Fin 1024, ∑ q : Fin 1024, g (rowIx i.val p) (rowIx j.val q) :=
        sum_tiles (fun i j => ∑ p : Fin 1024, ∑ q : Fin 1024, g (rowIx i p) (rowIx j q))
    _ = ∑ j : Fin 8, ∑ i : Fin 8, ∑ p : Fin 1024, ∑ q : Fin 1024, g (rowIx i.val p) (rowIx j.val q) :=
        Finset.sum_comm
    _ = ∑ j : Fin 8, ∑ q : Fin 1024, ∑ i : Fin 8, ∑ p : Fin 1024, g (rowIx i.val p) (rowIx j.val q) :=
        Finset.sum_congr rfl fun j _ =>
          (Finset.sum_congr rfl fun i _ => Finset.sum_comm).trans Finset.sum_comm
    _ = ∑ j : Fin 8, ∑ q : Fin 1024, ∑ c : Fin 8192, g c (rowIx j.val q) :=
        Finset.sum_congr rfl fun j _ => Finset.sum_congr rfl fun q _ =>
          (sum_stretches (fun c => g c (rowIx j.val q))).symm
    _ = ∑ r : Fin 8192, ∑ c : Fin 8192, g c r :=
        (sum_stretches (fun r => ∑ c : Fin 8192, g c r)).symm

end Cert.PairSum
-- ==== Proof.Blocks.lean ====
/-
  Which entries a tile reads.

  Grid point `t` (0 ≤ t < 64, row by row over the 8 × 8 grid) is handed block `t / 8` of the column and
  block `t % 8` of the row.  Entry `p` of the column's block is entry `1024·(t / 8) + p` of the shifted
  vector; entry `q` of the row's block is entry `1024·(t % 8) + q`.  So the tile's sum is the sum of
  |x a − x b| over the 1024 × 1024 pairs (a, b) of stretch `t / 8` against stretch `t % 8`.
-/
import proofs.«135567_j11141145166385_1_alg».proof.Proof.HostSide
import proofs.«135567_j11141145166385_1_alg».proof.Proof.TilePayload
import proofs.«135567_j11141145166385_1_alg».proof.Proof.PairSum

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen Cert.KernelIdeal.HostSide Cert.KernelIdeal.Tile Cert.PairSum

variable (m : (ℓ : Loc nD τ sig) → Buf (Elt Ideal) ℓ)

/-- The block indices at each grid point, decided over the grid. -/
theorem block_index : ∀ t : Fin cfg0.N, win0_0.index t 0 = t.val / 8 ∧ win0_0.index t 1 = 0
    ∧ win0_1.index t 0 = 0 ∧ win0_1.index t 1 = t.val % 8 :=
  (by decide +kernel : ∀ t : Fin grid0.N, win0_0.index t 0 = t.val / 8 ∧ win0_0.index t 1 = 0
    ∧ win0_1.index t 0 = 0 ∧ win0_1.index t 1 = t.val % 8)

/-- Entry `p` of the column's block at point `t`. -/
theorem column_entry (c : Dev nD) (t : Fin cfg0.N) (p : Fin 1024) :
    (iblk m c 0 t : FVec Ideal S1024x1 .f32) (ix2 p (0 : Fin 1)) = shifted (arg m c) (ix1 (rowIx (t.val / 8) p)) := by
  have hN : t.val < 64 := lt_of_lt_of_eq t.isLt (show cfg0.N = 64 from N_0)
  have hi := block_index t
  unfold iblk
  rw [View.read_apply]
  show (V m c main_v8 : FVec Ideal S8192x1 .f32) _ = _
  rw [entry_column]
  refine (congrArg (shapeCast S8192x1 (shifted (arg m c)) shapeCasts_S8192_S8192x1) (?_ : _ = ix2 (rowIx (t.val / 8) p) (0 : Fin 1))).trans
    (Cert.RowBlocks.shapeCast_col_apply _ _ (rowIx (t.val / 8) p) (0 : Fin 1))
  funext a
  apply Fin.ext
  match a with
  | ⟨0, _⟩ =>
    show win0_0.index t 0 * 1024 + 1 * p.val = (t.val / 8 % 8) * 1024 + p.val
    rw [hi.1, Nat.mod_eq_of_lt (by omega)]; omega
  | ⟨1, _⟩ =>
    show win0_0.index t 1 * 1 + 1 * 0 = 0
    rw [hi.2.1]

/-- Entry `q` of the row's block at point `t`. -/
theorem row_entry (c : Dev nD) (t : Fin cfg0.N) (q : Fin 1024) :
    (iblk m c 1 t : FVec Ideal S1x1024 .f32) (ix2 (0 : Fin 1) q) = shifted (arg m c) (ix1 (rowIx (t.val % 8) q)) := by
  have hi := block_index t
  unfold iblk
  rw [View.read_apply]
  show (V m c main_v9 : FVec Ideal S1x8192 .f32) _ = _
  rw [entry_row]
  refine (congrArg (shapeCast S1x8192 (shifted (arg m c)) shapeCasts_S8192_S1x8192) (?_ : _ = ix2 (0 : Fin 1) (rowIx (t.val % 8) q))).trans
    (shapeCast_a_1a_apply _ _ (0 : Fin 1) (rowIx (t.val % 8) q))
  funext a
  apply Fin.ext
  match a with
  | ⟨0, _⟩ =>
    show win0_1.index t 0 * 1 + 1 * 0 = 0
    rw [hi.2.2.1]
  | ⟨1, _⟩ =>
    show win0_1.index t 1 * 1024 + 1 * q.val = (t.val % 8 % 8) * 1024 + q.val
    rw [hi.2.2.2, Nat.mod_mod]; omega

/-- The absolute difference of two entries of the shifted vector. -/
def gap (a : FVec Ideal S8192 .f32) (i j : Fin 8192) : EReal :=
  FloatOps.absf (F := Ideal) (φ := .f32) (shifted a (ix1 i) - shifted a (ix1 j))

/-- The tile's sum at point `t`: stretch `t / 8` against stretch `t % 8`. -/
theorem tile_at (c : Dev nD) (t : Fin cfg0.N) :
    tileSum (iblk m c 0 t) (iblk m c 1 t)
      = ∑ p : Fin 1024, ∑ q : Fin 1024, gap (arg m c) (rowIx (t.val / 8) p) (rowIx (t.val % 8) q) := by
  unfold tileSum gap
  refine Finset.sum_congr rfl fun p _ => Finset.sum_congr rfl fun q _ => ?_
  rw [column_entry m c t p, row_entry m c t q]

end Cert.KernelIdeal.Blocks

end
-- ==== Proof.Pieces.lean ====
/-
  What the body leaves behind at a grid point, case by case, as values.

  The body keeps a running total in a one-entry buffer of its own.  At the first point it stores zero there
  and then overwrites it with "zero + this tile's sum"; at every later point it overwrites the total with
  "total + this tile's sum"; at the last point it also copies the new total into the one-entry output block.
  Each of these is a single store that covers the whole one-entry buffer, so what the buffer holds afterwards
  is that store's value, and a load of a buffer just stored is the value stored.
-/
import proofs.«135567_j11141145166385_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First point: the running total ends at "zero block, plus the tile". -/
theorem total_first (c : Dev nD) (i : grid0.Coords) (a2 : Memref sig .tc .vmem S1024x1 .f32) (h2 : a2.IsWhole)
    (a3 : Memref sig .tc .vmem S1x1024 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 : Vec F S1024x1 .f32) (x1 : Vec F S1x1024 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x1) hz,
    View.ld_unit_zero (S := S1x1024) hz]

/-- A middle point: the running total ends at "previous total, plus the tile". -/
theorem total_middle (c : Dev nD) (i : grid0.Coords) (a2 : Memref sig .tc .vmem S1024x1 .f32) (h2 : a2.IsWhole)
    (a3 : Memref sig .tc .vmem S1x1024 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 : Vec F S1024x1 .f32) (x1 : Vec F S1x1024 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x1) hz,
    View.ld_unit_zero (S := S1x1024) hz, View.ld_unit_zero (S := S1x1) hz]

/-- Last point: the running total likewise, -/
theorem total_last (c : Dev nD) (i : grid0.Coords) (a2 : Memref sig .tc .vmem S1024x1 .f32) (h2 : a2.IsWhole)
    (a3 : Memref sig .tc .vmem S1x1024 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S1024x1 .f32) (x1 : Vec F S1x1024 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x1) hz,
    View.ld_unit_zero (S := S1x1024) hz, View.ld_unit_zero (S := S1x1) hz]

/-- and the output block receives that same new total. -/
theorem out_last (c : Dev nD) (i : grid0.Coords) (a2 : Memref sig .tc .vmem S1024x1 .f32) (h2 : a2.IsWhole)
    (a3 : Memref sig .tc .vmem S1x1024 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S1024x1 .f32) (x1 : Vec F S1x1024 .f32) (xs0 : Vec F S1x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S1024x1) hz,
    View.ld_unit_zero (S := S1x1024) hz, View.ld_unit_zero (S := S1x1) hz]

end Cert.KernelIdeal.Pieces

end
-- ==== Proof.Accum.lean ====
/-
  The running total, point by point.

  After grid point `n` the body's one-entry running total holds the sum of the tiles 0, …, n: zero plus tile 0
  after the first point, the previous total plus tile `n` after each later one — an induction on the point, the
  three kinds of point (first, middle, last) told apart by the point's number.  At the last point (number 63)
  the output block receives the same value: the sum of all 64 tiles.
-/
import proofs.«135567_j11141145166385_1_alg».proof.Proof.Blocks
import proofs.«135567_j11141145166385_1_alg».proof.Proof.Pieces

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.HostSide Cert.KernelIdeal.Tile Cert.KernelIdeal.Blocks
open Cert.KernelIdeal.Pieces Cert.PairSum

variable (m : (ℓ : Loc nD τ sig) → Buf (Elt Ideal) ℓ)

/-- Tile number `t`'s sum, as a function of the argument vector alone. -/
def tileNo (c : Dev nD) (t : ℕ) : EReal :=
  ∑ p : Fin 1024, ∑ q : Fin 1024, gap (arg m c) (rowIx (t / 8) p) (rowIx (t % 8) q)

/-- One step: a total known to be `S` becomes `S` plus the tile's sum. -/
theorem step (x0 : FVec Ideal S1024x1 .f32) (x1 : FVec Ideal S1x1024 .f32) (acc : FVec Ideal S1x1 .f32) (S : EReal)
    (hacc : acc (ix2 (0 : Fin 1) (0 : Fin 1)) = S) :
    k0_pay2 (F := Ideal) x0 x1 acc (ix2 (0 : Fin 1) (0 : Fin 1)) = S + tileSum x0 x1 := by
  rw [pay2_apply, hacc]

/-- The running total after point `n`: the sum of the tiles up to `n`. -/
theorem total_after (c : Dev nD) : ∀ (n : ℕ) (h : n < cfg0.N),
    (outsAt0 m c n h).2 (ix2 (0 : Fin 1) (0 : Fin 1)) = ∑ t ∈ Finset.range (n + 1), tileNo m c t
  | 0, h => by
    rw [outsAt0_A m c ⟨0, h⟩ rfl (by show ¬(0 % 64 = 63); decide)]
    dsimp only
    rw [total_first (F := Ideal)]
    refine (step (iblk m c 0 ⟨0, h⟩) (iblk m c 1 ⟨0, h⟩) k0_pay1 0 pay1_apply).trans ?_
    rw [zero_add, Finset.sum_range_one, tile_at m c ⟨0, h⟩]
    rfl
  | n + 1, h => by
    have hN : cfg0.N = 64 := N_0
    have ih := total_after c n (Nat.lt_of_succ_lt h)
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [total_last (F := Ideal)]
      refine (step (iblk m c 0 ⟨n + 1, h⟩) (iblk m c 1 ⟨n + 1, h⟩) _ _ ih).trans ?_
      rw [Finset.sum_range_succ _ (n + 1), tile_at m c ⟨n + 1, h⟩]
      rfl
    · rw [outsAt0_B m c ⟨n + 1, h⟩ h0 h1]
      dsimp only
      rw [total_middle (F := Ideal)]
      refine (step (iblk m c 0 ⟨n + 1, h⟩) (iblk m c 1 ⟨n + 1, h⟩) _ _ ih).trans ?_
      rw [Finset.sum_range_succ _ (n + 1), tile_at m c ⟨n + 1, h⟩]
      rfl

/-- The last point's number. -/
theorem last_lt : 63 < cfg0.N := by rw [show cfg0.N = 64 from N_0]; decide

/-- What the output block holds after the last point: the sum of all 64 tiles, at its one index. -/
theorem out_after_last (c : Dev nD) (j : S1x1.Idx) :
    (outsAt0 m c 63 last_lt).1 j = ∑ t ∈ Finset.range 64, tileNo m c t := by
  obtain rfl : j = ix2 (0 : Fin 1) (0 : Fin 1) := by
    funext a
    apply Fin.ext
    match a with
    | ⟨0, _⟩ => have := idx2_lt0 j; show (j 0).val = 0; omega
    | ⟨1, _⟩ => have := idx2_lt1 j; show (j 1).val = 0; omega
  have ih := total_after m c 62 (Nat.lt_of_succ_lt last_lt)
  rw [outsAt0_C m c ⟨63, last_lt⟩ (by show ¬(63 % 64 = 0); decide) (by show 63 % 64 = 63; decide)]
  dsimp only
  rw [out_last (F := Ideal)]
  refine (step (iblk m c 0 ⟨63, last_lt⟩) (iblk m c 1 ⟨63, last_lt⟩) _ _ ih).trans ?_
  rw [Finset.sum_range_succ _ 63, tile_at m c ⟨63, last_lt⟩]
  rfl

end Cert.KernelIdeal.Accum

end
-- ==== Proof.Result.lean ====
/-
  What the tiled program returns.

  Only the last grid point writes the one-entry output block back, and that block is the whole one-entry result
  array; so after the run the array holds the sum of all 64 tiles.  The host lines after the tiled sum read
  that entry and divide it by 2²⁷ times the mean-plus-constant computed before it; nothing writes the argument.
-/
import proofs.«135567_j11141145166385_1_alg».proof.Proof.Accum
import Idealize.ShloMosaic.Lib.Pipeline.Value
import Idealize.ShloMosaic.Lib.StableHlo.Run

noncomputable section

open scoped BigOperators

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.HostSide Cert.KernelIdeal.Accum

variable (m : (ℓ : Loc nD τ sig) → Buf (Elt Ideal) ℓ) (ρ : Dev nD → PrngReg)

/-- The sum of all 64 tiles. -/
def total (c : Dev nD) : EReal := ∑ t ∈ Finset.range 64, tileNo m c t

/-- The same, as the contents of the one-entry result array. -/
abbrev totalArr (c : Dev nD) : Buf (Elt Ideal) ((c : Thread nD τ).loc main_v10) := fun _ => total m c

/-- The one write-back, at the last point, writes the total. -/
theorem flushed_eq (c : Dev nD) (t : Fin cfg0.N) (hf : (cfg0.win 2).flush t = true) :
    (dats m 0 c).flushed 2 t = ((cfg0.win 2).blk t).view.read (Elt Ideal) (totalArr m c) := by
  have hN : cfg0.N = 64 := N_0
  have h63 : t.val = 63 := by have := (flush0_2 t).mp hf; have := t.isLt; omega
  obtain rfl : t = ⟨63, last_lt⟩ := Fin.ext h63
  funext y
  rw [View.read_apply]
  show (cfg0.win 2).cut (grid0.coords ⟨63, last_lt⟩) ((dats m 0 c).after 2 ⟨63, last_lt⟩) y = total m c
  rw [after0_2]
  exact out_after_last m c _

/-- The last point's block is the whole one-entry array. -/
theorem cover (c : Dev nD) (i : ((cfg0.win 2).arr.view.loc (c.tc : Thread nD τ)).2.ty.Idx) :
    ∃ t : Fin cfg0.N, (cfg0.win 2).flush t = true ∧ i ∈ ((cfg0.win 2).blk t).view.set :=
  ⟨⟨63, last_lt⟩, (flush0_2 ⟨63, last_lt⟩).mpr rfl, by
    show i ∈ ((View.whole main_v10).slice (win0_2.rect ⟨63, last_lt⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index ⟨63, last_lt⟩ 0 * win0_2.size 0 ≤ (i 0 : Nat)
        ∧ (i 0 : Nat) < win0_2.index ⟨63, last_lt⟩ 0 * win0_2.size 0 + win0_2.xsize (grid0.coords ⟨63, last_lt⟩) 0
      rw [show win0_2.index ⟨63, last_lt⟩ 0 * win0_2.size 0 = 0 from by decide +kernel,
        show win0_2.xsize (grid0.coords ⟨63, last_lt⟩) 0 = 1 from by decide +kernel]
      omega
    | ⟨1, _⟩ =>
      show win0_2.index ⟨63, last_lt⟩ 1 * win0_2.size 1 ≤ (i 1 : Nat)
        ∧ (i 1 : Nat) < win0_2.index ⟨63, last_lt⟩ 1 * win0_2.size 1 + win0_2.xsize (grid0.coords ⟨63, last_lt⟩) 1
      rw [show win0_2.index ⟨63, last_lt⟩ 1 * win0_2.size 1 = 0 from by decide +kernel,
        show win0_2.xsize (grid0.coords ⟨63, last_lt⟩) 1 = 1 from by decide +kernel]
      omega⟩

/-- So the result array ends holding the total. -/
theorem array_after (c : Dev nD) : (dats m 0 c).arrAt 2 cfg0.N = totalArr m c :=
  (dats m 0 c).arrAt_eq_of_cover 2 (totalArr m c) (flushed_eq m c) (cover c)

/-- The program's result after the host lines that follow the tiled sum. -/
theorem result_eq (c : Dev nD) :
    (Pipeline.afterTail₀ cfgs (dats m) 0 (V0 m) [hostOps1] c main_v13 : FVec Ideal S_ .f32)
      = ratio (fun _ => total m c) (meanEps (arg m c)) := by
  unfold Pipeline.afterTail₀
  show StableHlo.after hostOps1 _ (Proc.devRef .tc main_v13) = _
  after_results
  have hW : Pipeline.withArrays (cfgs 0).spec c (V0 m c) (fun w => (dats m 0 c).arrAt w (cfgs 0).N)
      (Proc.devRef .tc main_v10) = totalArr m c :=
    (Pipeline.withArrays_arr spec0 launch0.win.arr_inj c (V0 m c) _ 2).trans (array_after m c)
  have hM : Pipeline.withArrays (cfgs 0).spec c (V0 m c) (fun w => (dats m 0 c).arrAt w (cfgs 0).N)
      (Proc.devRef .tc main_v7) = meanEps (arg m c) :=
    (Pipeline.withArrays_of_ne _ c (V0 m c) _ main_v7
      (by exact (by decide : ∀ w, Pipeline.arrRef spec0 w ≠ main_v7))).trans (entry_meanEps m c)
  rw [hW, hM]
  rfl

/-- The run, read: on every core the result is the total divided by 2²⁷ times the mean-plus-constant, and the
    argument is unchanged. -/
theorem run : θ_run defs (onTc (τ := τ) (main (F := Ideal))) ⟨m, fun _ => 0, ρ⟩ fun r => ∀ c : Dev nD,
      r.2.mem ((c.tc : Thread nD τ).loc main_v13) = ratio (fun _ => total m c) (meanEps (arg m c))
      ∧ r.2.mem ((c.tc : Thread nD τ).loc main_arg0) = m ((c.tc : Thread nD τ).loc main_arg0) :=
  (θ_run defs _ _).mono (fun _ h c =>
      ⟨((h c).2 main_v13 (Pipeline.mem_restRefs_of main_v13 (by decide) (by decide))).trans (result_eq m c),
        ((h c).2 main_arg0 (Pipeline.mem_restRefs_of main_arg0 (by decide) (by decide))).trans (W_main_arg0 m (dats m) c)⟩)
    (run_main m ρ)

end Cert.KernelIdeal.Result

end
-- ==== Proof.RefValue.lean ====
/-
  The reference's all-pairs sum, on the extended reals.

  The reference lays the shifted vector out as a row and as a column, broadcasts both to `[8192, 8192]`,
  subtracts, takes absolute values and sums every entry from zero.  Entry `(r, c)` of the difference is
  `x c − x r`; so the sum is zero plus the sum over all `r` and `c` of |x c − x r|, and zero plus a number
  is that number.
-/
import proofs.«135567_j11141145166385_1_alg».proof.Proof.Gen.ReferenceIdeal.Read
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read

/-- The reference's sum over all pairs, read at its one index. -/
theorem pairs_apply (x0 : FVec Ideal S8192 .f32) (i : S_.Idx) :
    val_main_v14 (F := Ideal) x0 i
      = ∑ r : Fin 8192, ∑ c : Fin 8192,
          FloatOps.absf (F := Ideal) (φ := .f32) (val_main_v4 (F := Ideal) x0 (ix1 c) - val_main_v4 (F := Ideal) x0 (ix1 r)) := by
  rw [val_main_v14_apply, val_main_cst_4_apply]
  refine (congrArg (· + _) Ideal.ofBits_zero_f32).trans ?_
  rw [zero_add, sum_idx2]
  refine Finset.sum_congr rfl fun r _ => Finset.sum_congr rfl fun c _ => ?_
  have e1 : idx_main_v8 (idx_main_v10 (ix2 r c)) = ix1 c := funext fun a => by
    match a with
    | ⟨0, _⟩ => rfl
  have e2 : idx_main_v9 (idx_main_v11 (ix2 r c)) = ix1 r := funext fun a => by
    match a with
    | ⟨0, _⟩ => rfl
  rw [val_main_v13_apply, val_main_v12_apply, val_main_v10_apply, val_main_v11_apply, val_main_v8_apply,
    val_main_v9_apply, e1, e2]
  rfl

end Cert.ReferenceIdeal.RefValue

end
-- ==== Proof.Bridge.lean ====
/-
  The two programs compute one number.

  Both shift the vector, take its mean plus the small constant, and divide a sum of absolute differences by
  2²⁷ times that mean: the same host operations on both sides.  The sums differ only in arrangement: the
  reference adds |x c − x r| over all pairs (r, c) at once; the tiled program adds, tile after tile, |x a − x b|
  over the tile's pairs (a, b).  Every pair lies in exactly one tile, and trading the names of the two indices
  turns one summand into the other, so the totals agree — by reordering a finite sum only; nothing is assumed
  finite.
-/
import proofs.«135567_j11141145166385_1_alg».proof.Proof.Result
import proofs.«135567_j11141145166385_1_alg».proof.Proof.RefValue
import proofs.«135567_j11141145166385_1_alg».proof.Proof.PairSum

noncomputable section

open scoped BigOperators

namespace Cert.Bridge

open Idealize.ShloMosaic Idealize.ShloMosaic.TcCoe Idealize.SL.Sem Idealize.ShloMosaic.ValueIdx
open Cert.KernelIdeal.HostSide Cert.KernelIdeal.Blocks Cert.KernelIdeal.Accum Cert.KernelIdeal.Result Cert.PairSum

/-- The reference's shifted vector is the tiled program's: the same operations. -/
theorem ref_shifted (x0 : FVec Ideal Cert.KernelIdeal.S8192 .f32) :
    Cert.ReferenceIdeal.Read.val_main_v4 (F := Ideal) x0 = shifted x0 := rfl

/-- Its mean plus the small constant likewise. -/
theorem ref_meanEps (x0 : FVec Ideal Cert.KernelIdeal.S8192 .f32) :
    Cert.ReferenceIdeal.Read.val_main_v7 (F := Ideal) x0 = meanEps x0 := rfl

/-- The reference's all-pairs sum is the sum of the 64 tiles. -/
theorem ref_pairs (x0 : FVec Ideal Cert.KernelIdeal.S8192 .f32) (i : Cert.ReferenceIdeal.S_.Idx) :
    Cert.ReferenceIdeal.Read.val_main_v14 (F := Ideal) x0 i
      = ∑ t ∈ Finset.range 64, ∑ p : Fin 1024, ∑ q : Fin 1024, gap x0 (rowIx (t / 8) p) (rowIx (t % 8) q) := by
  rw [Cert.ReferenceIdeal.RefValue.pairs_apply, ref_shifted]
  exact (tiles_eq_pairs (fun a b => gap x0 a b)).symm

/-- So the reference's result, of the argument the tiled program was given, is the tiled program's. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v16 (F := Ideal) (arg m c) = ratio (fun _ => total m c) (meanEps (arg m c)) := by
  have e14 : (Cert.ReferenceIdeal.Read.val_main_v14 (F := Ideal) (arg m c) : FVec Ideal Cert.KernelIdeal.S_ .f32)
      = fun _ => total m c := funext fun i => ref_pairs (arg m c) i
  have e7 : (Cert.ReferenceIdeal.Read.val_main_v7 (F := Ideal) (arg m c) : FVec Ideal Cert.KernelIdeal.S_ .f32)
      = meanEps (arg m c) := ref_meanEps (arg m c)
  show ratio (F := Ideal) (Cert.ReferenceIdeal.Read.val_main_v14 (F := Ideal) (arg m c) : FVec Ideal Cert.KernelIdeal.S_ .f32)
      (Cert.ReferenceIdeal.Read.val_main_v7 (F := Ideal) (arg m c) : FVec Ideal Cert.KernelIdeal.S_ .f32) = _
  rw [e14, e7]

end Cert.Bridge

end
-- ==== Proof.lean ====
/-
  A Gini-type ratio: the sum of |x a − x b| over all pairs of entries of a vector of 8192 numbers (shifted so
  that its least entry is not negative), divided by 2 · 8192² times the vector's mean plus a small constant.

  The tiled program computes the pair sum on an 8 × 8 grid of 1024 × 1024 tiles, keeping a running total in a
  one-entry buffer that it sets to zero at the first grid point, adds each tile's sum to, and copies to its
  one-entry result at the last point; the shift, the mean and the final division are host operations around
  it.  The reference computes the same host operations and the pair sum in one piece, as the sum over all
  (r, c) of |x c − x r|.

  On the extended reals both results are the same number.  The host operations are literally the same on
  both sides.  The pair sums agree because the tiles partition the pairs and a finite sum may be reordered and
  regrouped freely (Proof/PairSum.lean); this uses only that addition is commutative and associative with
  0 as its unit, so no entry needs to be finite and the precondition is not opened.

  Modules: PairSum (the reordering law), TilePayload (one tile's arithmetic at an index), Pieces (what each
  kind of grid point leaves in the running total and in the output block), HostSide (the host operations as
  functions of the argument), Blocks (which entries a tile reads), Accum (the running total by induction on
  the grid point), Result (the result array and the run), RefValue (the reference's pair sum at an index),
  Bridge (the two results are equal).  The three programs' termination, absence of faults and unchanged
  arguments are the generated frame theorems and the reference's generated run.
-/
import proofs.«135567_j11141145166385_1_alg».proof.Defs
import proofs.«135567_j11141145166385_1_alg».proof.Proof.Gen.Kernel
import proofs.«135567_j11141145166385_1_alg».proof.Proof.Gen.Kernel.Skeleton
import proofs.«135567_j11141145166385_1_alg».proof.Proof.Gen.Kernel.Launch
import proofs.«135567_j11141145166385_1_alg».proof.Proof.Gen.Kernel.Points
import proofs.«135567_j11141145166385_1_alg».proof.Proof.Gen.Kernel.Frame
import proofs.«135567_j11141145166385_1_alg».proof.Proof.Gen.KernelIdeal
import proofs.«135567_j11141145166385_1_alg».proof.Proof.Gen.KernelIdeal.Skeleton
import proofs.«135567_j11141145166385_1_alg».proof.Proof.Gen.KernelIdeal.Launch
import proofs.«135567_j11141145166385_1_alg».proof.Proof.Gen.KernelIdeal.Points
import proofs.«135567_j11141145166385_1_alg».proof.Proof.Gen.KernelIdeal.Frame
import proofs.«135567_j11141145166385_1_alg».proof.Proof.Gen.ReferenceIdeal
import proofs.«135567_j11141145166385_1_alg».proof.Proof.Gen.ReferenceIdeal.Run
import proofs.«135567_j11141145166385_1_alg».proof.Proof.Gen.ReferenceIdeal.Read
import proofs.«135567_j11141145166385_1_alg».proof.Proof.Gen.Pre_finite_inputs
import proofs.«135567_j11141145166385_1_alg».proof.Proof.Bridge
import Idealize.ShloMosaic.Adequacy
import Idealize.ShloMosaic.Init

noncomputable section

namespace Cert.Proof

open Idealize.ShloMosaic Idealize.SL.Sem

/-- The tiled program, read at the word level, runs and leaves its argument unchanged. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs and leaves its argument unchanged: its run, the result forgotten. -/
theorem frame_referenceIdeal : Cert.frame_ReferenceIdeal := by
  intro m ρ _
  have hrun := Cert.ReferenceIdeal.Value.run (F := Ideal) m ρ
  refine (θ_run Cert.ReferenceIdeal.defs _ _).mono ?_ hrun
  intro r h c
  exact (h c).2

/-- The idealization rewrote nothing. -/
theorem preserves : Cert.preserves_Kernel_KernelIdeal := trivial

/-- From memories that agree on the argument both programs end with the same result: the pair sum divided by
    2²⁷ times the mean plus the small constant. -/
theorem algebraic : Cert.algebraic_KernelIdeal_ReferenceIdeal := by
  intro m ρ m' ρ' _ hagree
  refine ⟨_, Cert.KernelIdeal.Result.run m ρ, ?_⟩
  have hrun := Cert.ReferenceIdeal.Value.run (F := Ideal) m' ρ'
  refine (θ_run Cert.ReferenceIdeal.defs _ _).mono ?_ hrun
  intro r h c
  refine ⟨(h c).1.trans ?_, (h c).2⟩
  rw [Cert.ReferenceIdeal.Read.val_main_v16_eq, hagree c]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
